-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S3200000 : Shape := ⟨1, ![3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x16 : S_.BroadcastsInDim S1433x16 (![] : Fin 0 → Fin S1433x16.rank)
  reducesTo_S1433x16_S_d0_1 : S1433x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg6 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg6
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x1433 .f32) (main_arg1 : IVec S3200000 32) (main_arg2 : IVec S3200000 32) (main_arg3 : FVec F S1433x16 .f32) (main_arg4 : FVec F S16 .f32) (main_arg5 : FVec F S16x7 .f32) (main_arg6 : FVec F S7 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x16 .f32 := Host.absf main_arg3
  let main_cst_0 : FVec F S_ .f32 := constant S_ .f32 0x7F800000#32
  let main_v5 : FVec F S1433x16 .f32 := broadcastInDim S1433x16 ![] bcast_S_S1433x16 main_cst_0
  let main_v6 : IVec S1433x16 1 := cmpf .olt main_v4 main_v5
  let main_c_1 : IVec S_ 1 := constantI S_ 1 1#1
  let main_v7 : IVec S_ 1 := (fun x v => Host.reduce IntOp.andi x v reducesTo_S1433x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg5
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg6 main_v13 main_v16
-- ==== Kernel.lean ====
abbrev S100000x1433 : Shape := ⟨2, ![100000, 1433]⟩
abbrev S3200000 : Shape := ⟨1, ![3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S2000x1433 : Shape := ⟨2, ![2000, 1433]⟩
abbrev S2000x1 : Shape := ⟨2, ![2000, 1]⟩
abbrev S2000x16 : Shape := ⟨2, ![2000, 16]⟩
abbrev S3200000x16 : Shape := ⟨2, ![3200000, 16]⟩
abbrev S1x16 : Shape := ⟨2, ![1, 16]⟩
abbrev S100000x7 : Shape := ⟨2, ![100000, 7]⟩
abbrev S2000x7 : Shape := ⟨2, ![2000, 7]⟩
abbrev S3200000x7 : Shape := ⟨2, ![3200000, 7]⟩
abbrev S1x7 : Shape := ⟨2, ![1, 7]⟩

abbrev nBuf : Space → Nat
  | .hbm => 63
  | .vmem => 17
  | .smem => 0
  | _ => 0

abbrev bufTy : (tb : Table) → Fin (tcTables nBuf tb) → BufTy
  | .hbm, ⟨0, _⟩ => ⟨S100000x1433, .f32⟩
  | .hbm, ⟨1, _⟩ => ⟨S3200000, .i32⟩
  | .hbm, ⟨2, _⟩ => ⟨S3200000, .i32⟩
  | .hbm, ⟨3, _⟩ => ⟨S1433x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x16, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x16, .f32⟩
  | .hbm, ⟨36, _⟩ => ⟨S_, .f32⟩
  | .hbm, ⟨37, _⟩ => ⟨S100000x16, .f32⟩
  | .hbm, ⟨38, _⟩ => ⟨S3200000x1, .i32⟩
  | .hbm, ⟨39, _⟩ => ⟨S100000x16, .f32⟩
  | .hbm, ⟨40, _⟩ => ⟨S100000x1, .f32⟩
  | .hbm, ⟨41, _⟩ => ⟨S100000x1, .f32⟩
  | .hbm, ⟨42, _⟩ => ⟨S1x16, .f32⟩
  | .hbm, ⟨43, _⟩ => ⟨S100000x7, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x7, .f32⟩
  | .hbm, ⟨53, _⟩ => ⟨S_, .f32⟩
  | .hbm, ⟨54, _⟩ => ⟨S100000x7, .f32⟩
  | .hbm, ⟨55, _⟩ => ⟨S3200000x1, .i32⟩
  | .hbm, ⟨56, _⟩ => ⟨S100000x7, .f32⟩
  | .hbm, ⟨57, _⟩ => ⟨S100000x1, .f32⟩
  | .hbm, ⟨58, _⟩ => ⟨S100000x7, .f32⟩
  | .hbm, ⟨59, _⟩ => ⟨S100000x7, .f32⟩
  | .hbm, ⟨60, _⟩ => ⟨S1x7, .f32⟩
  | .hbm, ⟨61, _⟩ => ⟨S100000x7, .f32⟩
  | .hbm, ⟨62, _⟩ => ⟨S100000x7, .f32⟩
  | .local _ .vmem, ⟨0, _⟩ => ⟨S2000x1433, .f32⟩
  | .local _ .vmem, ⟨1, _⟩ => ⟨S2000x1433, .f32⟩
  | .local _ .vmem, ⟨2, _⟩ => ⟨S1433x16, .f32⟩
  | .local _ .vmem, ⟨3, _⟩ => ⟨S2000x1, .f32⟩
  | .local _ .vmem, ⟨4, _⟩ => ⟨S2000x1, .f32⟩
  | .local _ .vmem, ⟨5, _⟩ => ⟨S2000x16, .f32⟩
  | .local _ .vmem, ⟨6, _⟩ => ⟨S2000x16, .f32⟩
  | .local _ .vmem, ⟨7, _⟩ => ⟨S2000x16, .f32⟩
  | .local _ .vmem, ⟨8, _⟩ => ⟨S2000x16, .f32⟩
  | .local _ .vmem, ⟨9, _⟩ => ⟨S2000x1, .f32⟩
  | .local _ .vmem, ⟨10, _⟩ => ⟨S2000x1, .f32⟩
  | .local _ .vmem, ⟨11, _⟩ => ⟨S1x16, .f32⟩
  | .local _ .vmem, ⟨12, _⟩ => ⟨S16x7, .f32⟩
  | .local _ .vmem, ⟨13, _⟩ => ⟨S2000x1, .f32⟩
  | .local _ .vmem, ⟨14, _⟩ => ⟨S2000x1, .f32⟩
  | .local _ .vmem, ⟨15, _⟩ => ⟨S2000x7, .f32⟩
  | .local _ .vmem, ⟨16, _⟩ => ⟨S2000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x7 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S2000x1433_S2000x1433_0_0 : ∀ a, (![0, 0] : Fin 2 → Nat) a + S2000x1433.size a ≤ S2000x1433.size a
  h_S2000x1433 : 0 < S2000x1433.numel
  inb_S1433x16_S1433x16_0_0 : ∀ a, (![0, 0] : Fin 2 → Nat) a + S1433x16.size a ≤ S1433x16.size a
  h_S1433x16 : 0 < S1433x16.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x7_S16x7_0_0 : ∀ a, (![0, 0] : Fin 2 → Nat) a + S16x7.size a ≤ S16x7.size a
  h_S16x7 : 0 < S16x7.numel
  broadcasts_S2000x1_S2000x7 : S2000x1.Broadcasts S2000x7
  inb_S2000x7_S2000x7_0_0 : ∀ a, (![0, 0] : Fin 2 → Nat) a + S2000x7.size a ≤ S2000x7.size a
  h_S2000x7 : 0 < S2000x7.numel
  bcast_S_S100000x7 : S_.BroadcastsInDim S100000x7 (![] : Fin 0 → Fin S100000x7.rank)
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3200000x1_S3200000_n_0_0_1_wf : ScatterDims.WF S100000 S3200000x1 S3200000 [] [0] [0] 1
  dot_S2000x1433_S1433x16_S2000x16_1_0_0_1_n_n_wf : DotDims.WF S2000x1433 S1433x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S2000x16_S16x7_S2000x7_1_0_0_1_n_n_wf : DotDims.WF S2000x16 S16x7 S2000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S100000x1433.size a
  hwx0_0 : ∀ i : grid0.Coords, EltTy.bits .f32 = 32 ∨ (Rect.block (s := S100000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x16.size a ≤ S1433x16.size a
  hwx0_1 : ∀ i : grid0.Coords, EltTy.bits .f32 = 32 ∨ (Rect.block (s := S1433x16) S1433x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x16.size a ≤ S100000x16.size a
  hwx0_3 : ∀ i : grid0.Coords, EltTy.bits .f32 = 32 ∨ (Rect.block (s := S100000x16) S2000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x7.size a ≤ S16x7.size a
  hwx1_3 : ∀ i : grid1.Coords, EltTy.bits .f32 = 32 ∨ (Rect.block (s := S16x7) S16x7.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S100000x1.size a
  hwx1_4 : ∀ i : grid1.Coords, EltTy.bits .f32 = 32 ∨ (Rect.block (s := S100000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x7.size a ≤ S100000x7.size a
  hwx1_5 : ∀ i : grid1.Coords, EltTy.bits .f32 = 32 ∨ (Rect.block (s := S100000x7) S2000x7.size (cc1_transform_5 i) (hinb1_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S2000x1433_S1433x16_S2000x16_1_0_0_1_n_n : DotDims S2000x1433 S1433x16 S2000x16 where
  lhsContracting := [1]
  rhsContracting := [0]
  lhsNonContracting := [0]
  rhsNonContracting := [1]
  lhsBatch := []
  rhsBatch := []
  wf := dot_S2000x1433_S1433x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S2000x16_S16x7_S2000x7_1_0_0_1_n_n : DotDims S2000x16 S16x7 S2000x7 where
  lhsContracting := [1]
  rhsContracting := [0]
  lhsNonContracting := [0]
  rhsNonContracting := [1]
  lhsBatch := []
  rhsBatch := []
  wf := dot_S2000x16_S16x7_S2000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1433x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S16x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v28) S2000x7.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x1433 : Shape := ⟨2, ![100000, 1433]⟩
abbrev S3200000 : Shape := ⟨1, ![3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S3200000x16 : Shape := ⟨2, ![3200000, 16]⟩
abbrev S1x16 : Shape := ⟨2, ![1, 16]⟩
abbrev S100000x7 : Shape := ⟨2, ![100000, 7]⟩
abbrev S3200000x7 : Shape := ⟨2, ![3200000, 7]⟩
abbrev S1x7 : Shape := ⟨2, ![1, 7]⟩

abbrev nBuf : Space → Nat
  | .hbm => 74
  | .vmem => 0
  | .smem => 0
  | _ => 0

abbrev bufTy : (tb : Table) → Fin (tcTables nBuf tb) → BufTy
  | .hbm, ⟨0, _⟩ => ⟨S100000x1433, .f32⟩
  | .hbm, ⟨1, _⟩ => ⟨S3200000, .i32⟩
  | .hbm, ⟨2, _⟩ => ⟨S3200000, .i32⟩
  | .hbm, ⟨3, _⟩ => ⟨S1433x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x1433, .f32⟩
  | .hbm, ⟨27, _⟩ => ⟨S100000x1433, .f32⟩
  | .hbm, ⟨28, _⟩ => ⟨S100000x16, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x16, .f32⟩
  | .hbm, ⟨38, _⟩ => ⟨S_, .f32⟩
  | .hbm, ⟨39, _⟩ => ⟨S100000x16, .f32⟩
  | .hbm, ⟨40, _⟩ => ⟨S3200000x1, .i32⟩
  | .hbm, ⟨41, _⟩ => ⟨S100000x16, .f32⟩
  | .hbm, ⟨42, _⟩ => ⟨S100000x1, .f32⟩
  | .hbm, ⟨43, _⟩ => ⟨S100000x16, .f32⟩
  | .hbm, ⟨44, _⟩ => ⟨S100000x16, .f32⟩
  | .hbm, ⟨45, _⟩ => ⟨S1x16, .f32⟩
  | .hbm, ⟨46, _⟩ => ⟨S100000x16, .f32⟩
  | .hbm, ⟨47, _⟩ => ⟨S100000x16, .f32⟩
  | .hbm, ⟨48, _⟩ => ⟨S_, .f32⟩
  | .hbm, ⟨49, _⟩ => ⟨S100000x16, .f32⟩
  | .hbm, ⟨50, _⟩ => ⟨S100000x16, .f32⟩
  | .hbm, ⟨51, _⟩ => ⟨S100000x1, .f32⟩
  | .hbm, ⟨52, _⟩ => ⟨S100000x16, .f32⟩
  | .hbm, ⟨53, _⟩ => ⟨S100000x16, .f32⟩
  | .hbm, ⟨54, _⟩ => ⟨S100000x7, .f32⟩
  | .hbm, ⟨55, _⟩ => ⟨S_, .i32⟩
  | .hbm, ⟨56, _⟩ => ⟨S3200000, .i32⟩
  | .hbm, ⟨57, _⟩ => ⟨S3200000, .i1⟩
  | .hbm, ⟨58, _⟩ => ⟨S_, .i32⟩
  | .hbm, ⟨59, _⟩ => ⟨S3200000, .i32⟩
  | .hbm, ⟨60, _⟩ => ⟨S3200000, .i32⟩
  | .hbm, ⟨61, _⟩ => ⟨S3200000, .i32⟩
  | .hbm, ⟨62, _⟩ => ⟨S3200000x1, .i32⟩
  | .hbm, ⟨63, _⟩ => ⟨S3200000x7, .f32⟩
  | .hbm, ⟨64, _⟩ => ⟨S_, .f32⟩
  | .hbm, ⟨65, _⟩ => ⟨S100000x7, .f32⟩
  | .hbm, ⟨66, _⟩ => ⟨S3200000x1, .i32⟩
  | .hbm, ⟨67, _⟩ => ⟨S100000x7, .f32⟩
  | .hbm, ⟨68, _⟩ => ⟨S100000x1, .f32⟩
  | .hbm, ⟨69, _⟩ => ⟨S100000x7, .f32⟩
  | .hbm, ⟨70, _⟩ => ⟨S100000x7, .f32⟩
  | .hbm, ⟨71, _⟩ => ⟨S1x7, .f32⟩
  | .hbm, ⟨72, _⟩ => ⟨S100000x7, .f32⟩
  | .hbm, ⟨73, _⟩ => ⟨S100000x7, .f32⟩
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x1433_0_1 : S100000x1.BroadcastsInDim S100000x1433 (![0, 1] : Fin 2 → Fin S100000x1433.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x7 : S_.BroadcastsInDim S100000x7 (![] : Fin 0 → Fin S100000x7.rank)
  bcast_S100000x1_S100000x7_0_1 : S100000x1.BroadcastsInDim S100000x7 (![0, 1] : Fin 2 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3200000x1_S3200000_n_0_0_1_wf : ScatterDims.WF S100000 S3200000x1 S3200000 [] [0] [0] 1
  dot_S100000x1433_S1433x16_S100000x16_1_0_0_1_n_n_wf : DotDims.WF S100000x1433 S1433x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x7_S100000x7_1_0_0_1_n_n_wf : DotDims.WF S100000x16 S16x7 S100000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x1433_S1433x16_S100000x16_1_0_0_1_n_n : DotDims S100000x1433 S1433x16 S100000x16 where
  lhsContracting := [1]
  rhsContracting := [0]
  lhsNonContracting := [0]
  rhsNonContracting := [1]
  lhsBatch := []
  rhsBatch := []
  wf := dot_S100000x1433_S1433x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

class Facts : Prop extends Facts₀ where

variable [Facts]
-- ==== Proof.KernelRun.lean ====
/-
  The idealized kernel program runs to completion and its result array is named.

  The program is three stretches of host operations around two pipelined regions.  Writing W0 for the
  memory at launch, W1 for the buffers after the first stretch, W2 after the first region's write-backs, W3
  after the second stretch, W4 after the second region's write-backs and W5 after the last stretch, every
  weakly fair execution ends with each unscoped buffer at W5.  The frame statement keeps only the seven
  argument arrays of that final state; here the result array is kept as well: it ends at W5's value.
-/
import proofs.«171490_j17858474016867_2_alg».proof.Defs
import proofs.«171490_j17858474016867_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds the
    value of the last boundary's contents W5 at it, and the seven argument arrays are as launched. -/
theorem run : θ_run defs (onTc (τ := τ) (main (F := F))) ⟨m, fun _ => 0, ρ⟩ (fun r => ∀ c : Dev nD,
      r.2.mem ((c.tc : Thread nD τ).loc main_v44) = W5 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v44 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.RunValue

end
-- ==== Proof.HostRead.lean ====
/-
  The host operations of the kernel program, read as functions of the buffers they start from.

  The program's host side computes, before the first region, each node's two normalising factors
  (the reciprocal square root of its out-degree, resp. in-degree, clamped below by one: a scatter-add of ones
  along the edge list); between the regions, the aggregation of the first layer (every edge gathers its source
  node's row and scatter-adds it into its destination node's row) and three re-layouts; after the second region, the
  same aggregation of the second layer, the scaling of every row by its node's in-degree factor and the bias.
  Each stretch is read here from ARBITRARY starting buffer contents `W`.
-/
import proofs.«171490_j17858474016867_2_alg».proof.Proof.Gen.KernelIdeal.Launch
import Idealize.ShloMosaic.Lib.StableHlo.Run

set_option maxRecDepth 16384

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]

/-- A node's normalising factor from one end of the edge list: count the edges at each node (a scatter-add of ones
    into zeros), clamp the count below by one, take the reciprocal square root. -/
def norm (ix : (⟨S3200000, .i32⟩ : BufTy).Contents (Elt F)) : (⟨S100000, .f32⟩ : BufTy).Contents (Elt F) :=
  Host.rsqrt (maximumf
    (Host.scatterAdd scatter_S100000_S3200000x1_S3200000_n_0_0_1
      (broadcastInDim S100000 ![] bcast_S_S100000 (constant S_ .f32 0x00000000#32))
      (broadcastInDim S3200000x1 ![0] bcast_S3200000_S3200000x1_0 ix)
      (broadcastInDim S3200000 ![] bcast_S_S3200000 (constant S_ .f32 0x3F800000#32)))
    (broadcastInDim S100000 ![] bcast_S_S100000 (constant S_ .f32 0x3F800000#32)))

/-- A negative node number counts from the end: add the node count to it. -/
def wrap (src : (⟨S3200000, .i32⟩ : BufTy).Contents (Elt F)) : (⟨S3200000, .i32⟩ : BufTy).Contents (Elt F) :=
  select (cmpi .slt src (broadcastInDim S3200000 ![] bcast_S_S3200000 (constantI S_ 32 0#32)))
    (addi src (broadcastInDim S3200000 ![] bcast_S_S3200000 (constantI S_ 32 100000#32))) src

/-- The first layer's aggregation: every edge gathers its source node's 16 entries and adds them into its
    destination node's row. -/
def agg16 (src dst : (⟨S3200000, .i32⟩ : BufTy).Contents (Elt F)) (h : (⟨S100000x16, .f32⟩ : BufTy).Contents (Elt F)) :
    (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 dst)
    (Host.gather gather_S100000x16_S3200000x1_S3200000x16_1_0_n_n_0_1_116 h
      (broadcastInDim S3200000x1 ![0] bcast_S3200000_S3200000x1_0 (wrap (F := F) src)))

/-- The second layer's aggregation, over rows of 7 entries. -/
def agg7 (src dst : (⟨S3200000, .i32⟩ : BufTy).Contents (Elt F)) (h : (⟨S100000x7, .f32⟩ : BufTy).Contents (Elt F)) :
    (⟨S100000x7, .f32⟩ : BufTy).Contents (Elt F) :=
  Host.scatterAdd scatter_S100000x7_S3200000x1_S3200000x7_1_0_0_1
    (broadcastInDim S100000x7 ![] bcast_S_S100000x7 (constant S_ .f32 0x00000000#32))
    (broadcastInDim S3200000x1 ![0] bcast_S3200000_S3200000x1_0 dst)
    (Host.gather gather_S100000x7_S3200000x1_S3200000x7_1_0_n_n_0_1_17 h
      (broadcastInDim S3200000x1 ![0] bcast_S3200000_S3200000x1_0 (wrap (F := F) src)))

/-- The program's last lines: aggregate the second layer, scale every row by its node's in-degree factor, add the bias. -/
def finish (src dst : (⟨S3200000, .i32⟩ : BufTy).Contents (Elt F)) (nd : (⟨S100000, .f32⟩ : BufTy).Contents (Elt F))
    (b : (⟨S7, .f32⟩ : BufTy).Contents (Elt F)) (h : (⟨S100000x7, .f32⟩ : BufTy).Contents (Elt F)) :
    (⟨S100000x7, .f32⟩ : BufTy).Contents (Elt F) :=
  addf (mulf (agg7 (F := F) src dst h)
      (broadcastInDim S100000x7 ![0, 1] bcast_S100000x1_S100000x7_0_1 (broadcastInDim S100000x1 ![0] bcast_S100000_S100000x1_0 nd)))
    (broadcastInDim S100000x7 ![0, 1] bcast_S1x7_S100000x7_0_1 (broadcastInDim S1x7 ![1] bcast_S7_S1x7_1 b))

/-- A vector of 100000 entries as a column. -/
def col (v : (⟨S100000, .f32⟩ : BufTy).Contents (Elt F)) : (⟨S100000x1, .f32⟩ : BufTy).Contents (Elt F) :=
  fun i => shapeCast S100000x1 v shapeCasts_S100000_S100000x1 i

/-- A vector of 16 entries as a row. -/
def row (v : (⟨S16, .f32⟩ : BufTy).Contents (Elt F)) : (⟨S1x16, .f32⟩ : BufTy).Contents (Elt F) :=
  fun i => shapeCast S1x16 v shapeCasts_S16_S1x16 i

variable (W : Valuation τ sig (Elt F))

/-! ## The first stretch -/

theorem first_v13 : StableHlo.after hostOps0 W (Proc.devRef .tc main_v13) = col (norm (F := F) (W (Proc.devRef .tc main_arg1))) := by
  after_results; rfl
theorem first_v9 : StableHlo.after hostOps0 W (Proc.devRef .tc main_v9) = norm (F := F) (W (Proc.devRef .tc main_arg1)) := by
  after_results; rfl
theorem first_v12 : StableHlo.after hostOps0 W (Proc.devRef .tc main_v12) = norm (F := F) (W (Proc.devRef .tc main_arg2)) := by
  after_results; rfl
theorem first_arg0 : StableHlo.after hostOps0 W (Proc.devRef .tc main_arg0) = W (Proc.devRef .tc main_arg0) := by
  after_results
theorem first_arg1 : StableHlo.after hostOps0 W (Proc.devRef .tc main_arg1) = W (Proc.devRef .tc main_arg1) := by
  after_results
theorem first_arg2 : StableHlo.after hostOps0 W (Proc.devRef .tc main_arg2) = W (Proc.devRef .tc main_arg2) := by
  after_results
theorem first_arg3 : StableHlo.after hostOps0 W (Proc.devRef .tc main_arg3) = W (Proc.devRef .tc main_arg3) := by
  after_results
theorem first_arg4 : StableHlo.after hostOps0 W (Proc.devRef .tc main_arg4) = W (Proc.devRef .tc main_arg4) := by
  after_results
theorem first_arg5 : StableHlo.after hostOps0 W (Proc.devRef .tc main_arg5) = W (Proc.devRef .tc main_arg5) := by
  after_results
theorem first_arg6 : StableHlo.after hostOps0 W (Proc.devRef .tc main_arg6) = W (Proc.devRef .tc main_arg6) := by
  after_results

/-! ## The second stretch -/

theorem second_v24 : StableHlo.after hostOps1 W (Proc.devRef .tc main_v24)
    = agg16 (F := F) (W (Proc.devRef .tc main_arg1)) (W (Proc.devRef .tc main_arg2)) (W (Proc.devRef .tc main_v14)) := by
  after_results; rfl
theorem second_v25 : StableHlo.after hostOps1 W (Proc.devRef .tc main_v25) = col (F := F) (W (Proc.devRef .tc main_v12)) := by
  after_results; rfl
theorem second_v26 : StableHlo.after hostOps1 W (Proc.devRef .tc main_v26) = col (F := F) (W (Proc.devRef .tc main_v9)) := by
  after_results; rfl
theorem second_v27 : StableHlo.after hostOps1 W (Proc.devRef .tc main_v27) = row (F := F) (W (Proc.devRef .tc main_arg4)) := by
  after_results; rfl
theorem second_arg5 : StableHlo.after hostOps1 W (Proc.devRef .tc main_arg5) = W (Proc.devRef .tc main_arg5) := by
  after_results
theorem second_v12 : StableHlo.after hostOps1 W (Proc.devRef .tc main_v12) = W (Proc.devRef .tc main_v12) := by
  after_results
theorem second_arg1 : StableHlo.after hostOps1 W (Proc.devRef .tc main_arg1) = W (Proc.devRef .tc main_arg1) := by
  after_results
theorem second_arg2 : StableHlo.after hostOps1 W (Proc.devRef .tc main_arg2) = W (Proc.devRef .tc main_arg2) := by
  after_results
theorem second_arg6 : StableHlo.after hostOps1 W (Proc.devRef .tc main_arg6) = W (Proc.devRef .tc main_arg6) := by
  after_results

/-! ## The last stretch -/

set_option maxHeartbeats 4000000 in
theorem last_v44 : StableHlo.after hostOps2 W (Proc.devRef .tc main_v44)
    = finish (F := F) (W (Proc.devRef .tc main_arg1)) (W (Proc.devRef .tc main_arg2)) (W (Proc.devRef .tc main_v12))
        (W (Proc.devRef .tc main_arg6)) (W (Proc.devRef .tc main_v28)) := by
  after_results_simp <;> rfl

end Cert.KernelIdeal.Glue

end
-- ==== Proof.Payload.lean ====
/-
  The two kernel bodies' arithmetic, read at one entry of the stored block.

  First body: the block of features (2000 rows) times the whole weight matrix, each row then multiplied by its
  node's factor:  entry (p, q) is  (∑ k, x p k * w k q) * s p.
  Second body: each entry of the aggregate block is multiplied by the row's factor, the bias of its column is added,
  the result is clamped below at zero; that block times the weight matrix, each row multiplied by the row's second
  factor:  entry (p, q) is  (∑ k, max (a p k * d p + b k) 0 * w k q) * s p.
-/
import proofs.«171490_j17858474016867_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

theorem lhsA_0 (i : S2000x16.Idx) (q : dot_S2000x1433_S1433x16_S2000x16_1_0_0_1_n_n.contr.Idx) : (dot_S2000x1433_S1433x16_S2000x16_1_0_0_1_n_n.lhsIdx i q 0).val = (i 0).val := by
  unfold DotDims.lhsIdx
  rw [dif_neg (show ¬(0 : Fin S2000x1433.rank) ∈ dot_S2000x1433_S1433x16_S2000x16_1_0_0_1_n_n.lhsBatch by decide), dif_pos (show (0 : Fin S2000x1433.rank) ∈ dot_S2000x1433_S1433x16_S2000x16_1_0_0_1_n_n.lhsNonContracting by decide)]
  rfl
theorem rhsA_1 (i : S2000x16.Idx) (q : dot_S2000x1433_S1433x16_S2000x16_1_0_0_1_n_n.contr.Idx) : (dot_S2000x1433_S1433x16_S2000x16_1_0_0_1_n_n.rhsIdx i q 1).val = (i 1).val := by
  unfold DotDims.rhsIdx
  rw [dif_neg (show ¬(1 : Fin S1433x16.rank) ∈ dot_S2000x1433_S1433x16_S2000x16_1_0_0_1_n_n.rhsBatch by decide), dif_pos (show (1 : Fin S1433x16.rank) ∈ dot_S2000x1433_S1433x16_S2000x16_1_0_0_1_n_n.rhsNonContracting by decide)]
  rfl

/-- A matrix product into a zero accumulator, of a 2000 × 1433 block and a 1433 × 16 matrix, at entry (p, q). -/
theorem matmul1_apply (l : FVec Ideal S2000x1433 .f32) (r : FVec Ideal S1433x16 .f32) (p : Fin 2000) (q : Fin 16) :
    matmul dot_S2000x1433_S1433x16_S2000x16_1_0_0_1_n_n none l r (constant S2000x16 .f32 0x00000000#32) (ix2 p q)
      = ∑ k : Fin 1433, l (ix2 p k) * r (ix2 k q) := by
  simp only [matmul]
  rw [Ideal.matmul_constant_zero_apply, ← Equiv.sum_comp (ValueIdx.contrEquiv1 dot_S2000x1433_S1433x16_S2000x16_1_0_0_1_n_n 1433 rfl rfl).symm]
  refine Finset.sum_congr rfl fun k _ => ?_
  have hk := ValueIdx.contrEquiv1_symm_val dot_S2000x1433_S1433x16_S2000x16_1_0_0_1_n_n 1433 rfl rfl k
  have el : dot_S2000x1433_S1433x16_S2000x16_1_0_0_1_n_n.lhsIdx (ix2 p q) ((ValueIdx.contrEquiv1 dot_S2000x1433_S1433x16_S2000x16_1_0_0_1_n_n 1433 rfl rfl).symm k) = ix2 p k := funext fun a => Fin.ext (by
    match a with
    | ⟨0, _⟩ => exact lhsA_0 _ _
    | ⟨1, _⟩ => exact (dot_S2000x1433_S1433x16_S2000x16_1_0_0_1_n_n.lhsIdx_val_of_single rfl _ _).trans hk)
  have er : dot_S2000x1433_S1433x16_S2000x16_1_0_0_1_n_n.rhsIdx (ix2 p q) ((ValueIdx.contrEquiv1 dot_S2000x1433_S1433x16_S2000x16_1_0_0_1_n_n 1433 rfl rfl).symm k) = ix2 k q := funext fun a => Fin.ext (by
    match a with
    | ⟨0, _⟩ => exact (dot_S2000x1433_S1433x16_S2000x16_1_0_0_1_n_n.rhsIdx_val_of_single rfl _ _).trans hk
    | ⟨1, _⟩ => exact rhsA_1 _ _)
  rw [el, er]

theorem lhsB_0 (i : S2000x7.Idx) (q : dot_S2000x16_S16x7_S2000x7_1_0_0_1_n_n.contr.Idx) : (dot_S2000x16_S16x7_S2000x7_1_0_0_1_n_n.lhsIdx i q 0).val = (i 0).val := by
  unfold DotDims.lhsIdx
  rw [dif_neg (show ¬(0 : Fin S2000x16.rank) ∈ dot_S2000x16_S16x7_S2000x7_1_0_0_1_n_n.lhsBatch by decide), dif_pos (show (0 : Fin S2000x16.rank) ∈ dot_S2000x16_S16x7_S2000x7_1_0_0_1_n_n.lhsNonContracting by decide)]
  rfl
theorem rhsB_1 (i : S2000x7.Idx) (q : dot_S2000x16_S16x7_S2000x7_1_0_0_1_n_n.contr.Idx) : (dot_S2000x16_S16x7_S2000x7_1_0_0_1_n_n.rhsIdx i q 1).val = (i 1).val := by
  unfold DotDims.rhsIdx
  rw [dif_neg (show ¬(1 : Fin S16x7.rank) ∈ dot_S2000x16_S16x7_S2000x7_1_0_0_1_n_n.rhsBatch by decide), dif_pos (show (1 : Fin S16x7.rank) ∈ dot_S2000x16_S16x7_S2000x7_1_0_0_1_n_n.rhsNonContracting by decide)]
  rfl

/-- The same for a 2000 × 16 block and a 16 × 7 matrix. -/
theorem matmul2_apply (l : FVec Ideal S2000x16 .f32) (r : FVec Ideal S16x7 .f32) (p : Fin 2000) (q : Fin 7) :
    matmul dot_S2000x16_S16x7_S2000x7_1_0_0_1_n_n none l r (constant S2000x7 .f32 0x00000000#32) (ix2 p q)
      = ∑ k : Fin 16, l (ix2 p k) * r (ix2 k q) := by
  simp only [matmul]
  rw [Ideal.matmul_constant_zero_apply, ← Equiv.sum_comp (ValueIdx.contrEquiv1 dot_S2000x16_S16x7_S2000x7_1_0_0_1_n_n 16 rfl rfl).symm]
  refine Finset.sum_congr rfl fun k _ => ?_
  have hk := ValueIdx.contrEquiv1_symm_val dot_S2000x16_S16x7_S2000x7_1_0_0_1_n_n 16 rfl rfl k
  have el : dot_S2000x16_S16x7_S2000x7_1_0_0_1_n_n.lhsIdx (ix2 p q) ((ValueIdx.contrEquiv1 dot_S2000x16_S16x7_S2000x7_1_0_0_1_n_n 16 rfl rfl).symm k) = ix2 p k := funext fun a => Fin.ext (by
    match a with
    | ⟨0, _⟩ => exact lhsB_0 _ _
    | ⟨1, _⟩ => exact (dot_S2000x16_S16x7_S2000x7_1_0_0_1_n_n.lhsIdx_val_of_single rfl _ _).trans hk)
  have er : dot_S2000x16_S16x7_S2000x7_1_0_0_1_n_n.rhsIdx (ix2 p q) ((ValueIdx.contrEquiv1 dot_S2000x16_S16x7_S2000x7_1_0_0_1_n_n 16 rfl rfl).symm k) = ix2 k q := funext fun a => Fin.ext (by
    match a with
    | ⟨0, _⟩ => exact (dot_S2000x16_S16x7_S2000x7_1_0_0_1_n_n.rhsIdx_val_of_single rfl _ _).trans hk
    | ⟨1, _⟩ => exact rhsB_1 _ _)
  rw [el, er]

/-- A column of 2000 entries spread over 16 columns: entry (p, q) is the column's entry p. -/
theorem col16_apply (v : FVec Ideal S2000x1 .f32) (p : Fin 2000) (q : Fin 16) :
    broadcastTo S2000x16 (shapeCast S2000x1 v shapeCasts_S2000x1_S2000x1) broadcasts_S2000x1_S2000x16 (ix2 p q) = v (ix2 p (0 : Fin 1)) := by
  rw [shapeCast_self]
  refine broadcastTo_apply v broadcasts_S2000x1_S2000x16 (ix2 p q) (ix2 p (0 : Fin 1)) fun a => ?_
  match a with
  | ⟨0, _⟩ => rfl
  | ⟨1, _⟩ => rfl

/-- A column of 2000 entries spread over 7 columns. -/
theorem col7_apply (v : FVec Ideal S2000x1 .f32) (p : Fin 2000) (q : Fin 7) :
    broadcastTo S2000x7 (shapeCast S2000x1 v shapeCasts_S2000x1_S2000x1) broadcasts_S2000x1_S2000x7 (ix2 p q) = v (ix2 p (0 : Fin 1)) := by
  rw [shapeCast_self]
  refine broadcastTo_apply v broadcasts_S2000x1_S2000x7 (ix2 p q) (ix2 p (0 : Fin 1)) fun a => ?_
  match a with
  | ⟨0, _⟩ => rfl
  | ⟨1, _⟩ => rfl

/-- A row of 16 entries spread over 2000 rows: entry (p, q) is the row's entry q. -/
theorem row16_apply (v : FVec Ideal S1x16 .f32) (p : Fin 2000) (q : Fin 16) :
    broadcastTo S2000x16 (shapeCast S1x16 v shapeCasts_S1x16_S1x16) broadcasts_S1x16_S2000x16 (ix2 p q) = v (ix2 (0 : Fin 1) q) := by
  rw [shapeCast_self]
  refine broadcastTo_apply v broadcasts_S1x16_S2000x16 (ix2 p q) (ix2 (0 : Fin 1) q) fun a => ?_
  match a with
  | ⟨0, _⟩ => rfl
  | ⟨1, _⟩ => rfl

/-- The first body's stored block at entry (p, q). -/
theorem pay1_apply (x0 : FVec Ideal S2000x1433 .f32) (x1 : FVec Ideal S1433x16 .f32) (x2 : FVec Ideal S2000x1 .f32)
    (p : Fin 2000) (q : Fin 16) :
    k0_pay1 (F := Ideal) x0 x1 x2 (ix2 p q) = (∑ k : Fin 1433, x0 (ix2 p k) * x1 (ix2 k q)) * x2 (ix2 p (0 : Fin 1)) := by
  unfold k0_pay1
  show mulf _ _ (ix2 p q) = _
  rw [mulf_apply, matmul1_apply, col16_apply]

/-- The second body's stored block at entry (p, q). -/
theorem pay2_apply (a : FVec Ideal S2000x16 .f32) (d : FVec Ideal S2000x1 .f32) (b : FVec Ideal S1x16 .f32)
    (w : FVec Ideal S16x7 .f32) (s : FVec Ideal S2000x1 .f32) (p : Fin 2000) (q : Fin 7) :
    k1_pay1 (F := Ideal) a d b w s (ix2 p q)
      = (∑ k : Fin 16, max (a (ix2 p k) * d (ix2 p (0 : Fin 1)) + b (ix2 (0 : Fin 1) k)) (Ideal.ofBits .f32 0x00000000#32) * w (ix2 k q))
          * s (ix2 p (0 : Fin 1)) := by
  unfold k1_pay1
  show mulf _ _ (ix2 p q) = _
  rw [mulf_apply, matmul2_apply, col7_apply]
  refine congrArg (· * s (ix2 p (0 : Fin 1))) (Finset.sum_congr rfl fun k _ => ?_)
  rw [maximumf_apply, addf_apply, mulf_apply, shapeCast_self, col16_apply, row16_apply]
  rfl

end Cert.KernelIdeal.Payload

end
-- ==== Proof.Layer1.lean ====
/-
  The first region's result array as one function of the three arrays it reads.

  The grid has 50 points; point t reads rows 2000 t … 2000 t + 1999 of the features and of the factor column and
  the whole weight matrix, and writes the same rows of the result.  The 50 row blocks tile the result, and in
  each block the entry (p, q) is the contraction of the feature row with the weight column, times the row's
  factor — so the whole array is
      i ↦ (∑ k, x (i₀, k) * w (k, i₁)) * s (i₀, 0).
-/
import proofs.«171490_j17858474016867_2_alg».proof.Proof.Gen.KernelIdeal.Frame
import proofs.«171490_j17858474016867_2_alg».proof.Proof.Payload

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat)
open Cert.KernelIdeal Cert.KernelIdeal.Gen

/-- Rows of `x` contracted with the columns of `w`, each row scaled by its entry of the column `s`. -/
def proj (x : S100000x1433.Idx → Elt Ideal .f32) (w : S1433x16.Idx → Elt Ideal .f32) (s : S100000x1.Idx → Elt Ideal .f32) :
    S100000x16.Idx → Elt Ideal .f32 :=
  fun i => (∑ k : Fin 1433, x (ix2 (⟨(i 0).val, (i 0).isLt⟩ : Fin 100000) k) * w (ix2 k (⟨(i 1).val, (i 1).isLt⟩ : Fin 16)))
    * s (ix2 (⟨(i 0).val, (i 0).isLt⟩ : Fin 100000) (0 : Fin 1))

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t: the row windows at row block t, the weight window at the origin. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What grid point t writes back is block t of `proj` of the arrays as the region finds them. -/
theorem flushed_eq (c : Dev nD) (t : Fin cfg0.N) :
    (dat0 V c).flushed 3 t = ((cfg0.win 3).blk t).view.read (Elt Ideal) (proj (V c main_arg0) (V c main_arg3) (V c main_v13)) := by
  show (cfg0.win 3).cut (grid0.coords t) ((dat0 V c).after 3 t) = _
  rw [after0_3]
  unfold out0_3
  rw [View.canon_unit_zero hz]
  simp only [View.ld_unit_zero (S := S2000x1433) hz, View.ld_unit_zero (S := S1433x16) hz, View.ld_unit_zero (S := S2000x1) hz]
  obtain ⟨e00, e01, e10, e11, e20, e21, e30, e31⟩ := block_index t
  have hN : cfg0.N = 50 := N_0
  have ht : t.val < 50 := by have := t.isLt; omega
  funext j
  obtain ⟨p, q, rfl⟩ : ∃ (p : Fin 2000) (q : Fin 16), j = ix2 p q := ⟨j 0, j 1, eq_ix2 j⟩
  refine (Payload.pay1_apply _ _ _ p q).trans ?_
  have hrow : t.val * 2000 + p.val < 100000 := by have := p.isLt; omega
  have h0 : ∀ k : Fin 1433, ((cfg0.win 0).blk t).view.emb (ix2 p k) = ix2 (⟨t.val * 2000 + p.val, hrow⟩ : Fin 100000) k := fun k => by
    funext a; apply Fin.ext
    match a with
    | ⟨0, _⟩ => show win0_0.index t (0 : Fin 2) * 2000 + 1 * p.val = t.val * 2000 + p.val; omega
    | ⟨1, _⟩ => show win0_0.index t (1 : Fin 2) * 1433 + 1 * k.val = k.val; omega
  have h1 : ∀ k : Fin 1433, ((cfg0.win 1).blk t).view.emb (ix2 k q) = ix2 k q := fun k => by
    funext a; apply Fin.ext
    match a with
    | ⟨0, _⟩ => show win0_1.index t (0 : Fin 2) * 1433 + 1 * k.val = k.val; omega
    | ⟨1, _⟩ => show win0_1.index t (1 : Fin 2) * 16 + 1 * q.val = q.val; omega
  have h2 : ((cfg0.win 2).blk t).view.emb (ix2 p (0 : Fin 1)) = ix2 (⟨t.val * 2000 + p.val, hrow⟩ : Fin 100000) (0 : Fin 1) := by
    funext a; apply Fin.ext
    match a with
    | ⟨0, _⟩ => show win0_2.index t (0 : Fin 2) * 2000 + 1 * p.val = t.val * 2000 + p.val; omega
    | ⟨1, _⟩ => show win0_2.index t (1 : Fin 2) * 1 + 1 * 0 = 0; omega
  have h3 : ((cfg0.win 3).blk t).view.emb (ix2 p q) = ix2 (⟨t.val * 2000 + p.val, hrow⟩ : Fin 100000) q := by
    funext a; apply Fin.ext
    match a with
    | ⟨0, _⟩ => show win0_3.index t (0 : Fin 2) * 2000 + 1 * p.val = t.val * 2000 + p.val; omega
    | ⟨1, _⟩ => show win0_3.index t (1 : Fin 2) * 16 + 1 * q.val = q.val; omega
  have key : ∀ (X : S100000x1433.Idx → Elt Ideal .f32) (Wt : S1433x16.Idx → Elt Ideal .f32) (S : S100000x1.Idx → Elt Ideal .f32),
      (∑ k : Fin 1433, X (((cfg0.win 0).blk t).view.emb (ix2 p k)) * Wt (((cfg0.win 1).blk t).view.emb (ix2 k q)))
          * S (((cfg0.win 2).blk t).view.emb (ix2 p (0 : Fin 1)))
        = proj X Wt S (((cfg0.win 3).blk t).view.emb (ix2 p q)) := by
    intro X Wt S
    rw [h2, h3]
    simp only [h0, h1]
    rfl
  exact key (V c main_arg0) (V c main_arg3) (V c main_v13)

/-- An index of the result is in point t's block iff each coordinate is in the block's range on its axis. -/
theorem mem_blk (t : Fin cfg0.N) (i : S100000x16.Idx) :
    i ∈ ((cfg0.win 3).blk t).view.set ↔ ∀ a : Fin 2, win0_3.index t a * S2000x16.size a ≤ (i a).val ∧ (i a).val < win0_3.index t a * S2000x16.size a + S2000x16.size a := by
  show i ∈ ((View.whole main_v14).slice (win0_3.rect t)).set ↔ _
  rw [View.set_slice_whole, Rect.mem_set_unit]
  exact Iff.rfl

/-- The 50 row blocks tile the result: row r lies in the block of point r / 2000. -/
theorem cover (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 50 := N_0
  let t : Fin cfg0.N := ⟨(i 0).val / 2000, by rw [hN]; omega⟩
  obtain ⟨-, -, -, -, -, -, e30, e31⟩ := block_index t
  refine ⟨t, flush0_3 t, ?_⟩
  rw [mem_blk]
  intro a
  have ht : t.val = (i 0).val / 2000 := rfl
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 16 ≤ (i 1).val ∧ (i 1).val < win0_3.index t (1 : Fin 2) * 16 + 16; omega

/-- The result array after the region. -/
theorem final (c : Dev nD) : (dat0 V c).arrAt 3 cfg0.N = proj (V c main_arg0) (V c main_arg3) (V c main_v13) :=
  (dat0 V c).arrAt_eq_of_cover 3 _ (fun t _ => flushed_eq V c t) cover

end Cert.KernelIdeal.Layer1

end
-- ==== Proof.Layer2.lean ====
/-
  The second region's result array as one function of the five arrays it reads.

  Point t of the 50 reads rows 2000 t … 2000 t + 1999 of the aggregate and of the two factor columns, the whole
  bias row and the whole weight matrix, and writes the same rows of the result; the 50 row blocks tile it.  With
  r = i₀ the whole array is
      i ↦ (∑ k, max (a (r, k) * d (r, 0) + b (0, k)) 0 * w (k, i₁)) * s (r, 0).
-/
import proofs.«171490_j17858474016867_2_alg».proof.Proof.Gen.KernelIdeal.Frame
import proofs.«171490_j17858474016867_2_alg».proof.Proof.Payload

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat)
open Cert.KernelIdeal Cert.KernelIdeal.Gen

/-- Rows of `a` scaled by `d`, shifted by the bias row `b` and clamped below at zero, contracted with the columns of
    `w`, each row then scaled by its entry of `s`. -/
def proj (a : S100000x16.Idx → Elt Ideal .f32) (d : S100000x1.Idx → Elt Ideal .f32) (b : S1x16.Idx → Elt Ideal .f32)
    (w : S16x7.Idx → Elt Ideal .f32) (s : S100000x1.Idx → Elt Ideal .f32) : S100000x7.Idx → Elt Ideal .f32 :=
  fun i => (∑ k : Fin 16,
      max (a (ix2 (⟨(i 0).val, (i 0).isLt⟩ : Fin 100000) k) * d (ix2 (⟨(i 0).val, (i 0).isLt⟩ : Fin 100000) (0 : Fin 1))
            + b (ix2 (0 : Fin 1) k)) (Ideal.ofBits .f32 0x00000000#32)
        * w (ix2 k (⟨(i 1).val, (i 1).isLt⟩ : Fin 7)))
    * s (ix2 (⟨(i 0).val, (i 0).isLt⟩ : Fin 100000) (0 : Fin 1))

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t: the row windows at row block t, the bias and weight windows at
    the origin. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- What grid point t writes back is block t of `proj` of the arrays as the region finds them. -/
theorem flushed_eq (c : Dev nD) (t : Fin cfg1.N) :
    (dat1 V c).flushed 5 t = ((cfg1.win 5).blk t).view.read (Elt Ideal)
      (proj (V c main_v24) (V c main_v25) (V c main_v27) (V c main_arg5) (V c main_v26)) := by
  show (cfg1.win 5).cut (grid1.coords t) ((dat1 V c).after 5 t) = _
  rw [after1_5]
  unfold out1_5
  rw [View.canon_unit_zero hz]
  simp only [View.ld_unit_zero (S := S2000x16) hz, View.ld_unit_zero (S := S2000x1) hz, View.ld_unit_zero (S := S1x16) hz,
    View.ld_unit_zero (S := S16x7) hz]
  obtain ⟨e00, e01, e10, e11, e20, e21, e30, e31, e40, e41, e50, e51⟩ := block_index t
  have hN : cfg1.N = 50 := N_1
  have ht : t.val < 50 := by have := t.isLt; omega
  funext j
  obtain ⟨p, q, rfl⟩ : ∃ (p : Fin 2000) (q : Fin 7), j = ix2 p q := ⟨j 0, j 1, eq_ix2 j⟩
  refine (Payload.pay2_apply _ _ _ _ _ p q).trans ?_
  have hrow : t.val * 2000 + p.val < 100000 := by have := p.isLt; omega
  have h0 : ∀ k : Fin 16, ((cfg1.win 0).blk t).view.emb (ix2 p k) = ix2 (⟨t.val * 2000 + p.val, hrow⟩ : Fin 100000) k := fun k => by
    funext a; apply Fin.ext
    match a with
    | ⟨0, _⟩ => show win1_0.index t (0 : Fin 2) * 2000 + 1 * p.val = t.val * 2000 + p.val; omega
    | ⟨1, _⟩ => show win1_0.index t (1 : Fin 2) * 16 + 1 * k.val = k.val; omega
  have h1 : ((cfg1.win 1).blk t).view.emb (ix2 p (0 : Fin 1)) = ix2 (⟨t.val * 2000 + p.val, hrow⟩ : Fin 100000) (0 : Fin 1) := by
    funext a; apply Fin.ext
    match a with
    | ⟨0, _⟩ => show win1_1.index t (0 : Fin 2) * 2000 + 1 * p.val = t.val * 2000 + p.val; omega
    | ⟨1, _⟩ => show win1_1.index t (1 : Fin 2) * 1 + 1 * 0 = 0; omega
  have h2 : ∀ k : Fin 16, ((cfg1.win 2).blk t).view.emb (ix2 (0 : Fin 1) k) = ix2 (0 : Fin 1) k := fun k => by
    funext a; apply Fin.ext
    match a with
    | ⟨0, _⟩ => show win1_2.index t (0 : Fin 2) * 1 + 1 * 0 = 0; omega
    | ⟨1, _⟩ => show win1_2.index t (1 : Fin 2) * 16 + 1 * k.val = k.val; omega
  have h3 : ∀ k : Fin 16, ((cfg1.win 3).blk t).view.emb (ix2 k q) = ix2 k q := fun k => by
    funext a; apply Fin.ext
    match a with
    | ⟨0, _⟩ => show win1_3.index t (0 : Fin 2) * 16 + 1 * k.val = k.val; omega
    | ⟨1, _⟩ => show win1_3.index t (1 : Fin 2) * 7 + 1 * q.val = q.val; omega
  have h4 : ((cfg1.win 4).blk t).view.emb (ix2 p (0 : Fin 1)) = ix2 (⟨t.val * 2000 + p.val, hrow⟩ : Fin 100000) (0 : Fin 1) := by
    funext a; apply Fin.ext
    match a with
    | ⟨0, _⟩ => show win1_4.index t (0 : Fin 2) * 2000 + 1 * p.val = t.val * 2000 + p.val; omega
    | ⟨1, _⟩ => show win1_4.index t (1 : Fin 2) * 1 + 1 * 0 = 0; omega
  have h5 : ((cfg1.win 5).blk t).view.emb (ix2 p q) = ix2 (⟨t.val * 2000 + p.val, hrow⟩ : Fin 100000) q := by
    funext a; apply Fin.ext
    match a with
    | ⟨0, _⟩ => show win1_5.index t (0 : Fin 2) * 2000 + 1 * p.val = t.val * 2000 + p.val; omega
    | ⟨1, _⟩ => show win1_5.index t (1 : Fin 2) * 7 + 1 * q.val = q.val; omega
  have key : ∀ (A : S100000x16.Idx → Elt Ideal .f32) (D : S100000x1.Idx → Elt Ideal .f32) (B : S1x16.Idx → Elt Ideal .f32)
      (Wt : S16x7.Idx → Elt Ideal .f32) (S : S100000x1.Idx → Elt Ideal .f32),
      (∑ k : Fin 16,
          max (A (((cfg1.win 0).blk t).view.emb (ix2 p k)) * D (((cfg1.win 1).blk t).view.emb (ix2 p (0 : Fin 1)))
                + B (((cfg1.win 2).blk t).view.emb (ix2 (0 : Fin 1) k))) (Ideal.ofBits .f32 0x00000000#32)
            * Wt (((cfg1.win 3).blk t).view.emb (ix2 k q)))
          * S (((cfg1.win 4).blk t).view.emb (ix2 p (0 : Fin 1)))
        = proj A D B Wt S (((cfg1.win 5).blk t).view.emb (ix2 p q)) := by
    intro A D B Wt S
    rw [h1, h4, h5]
    simp only [h0, h2, h3]
    rfl
  exact key (V c main_v24) (V c main_v25) (V c main_v27) (V c main_arg5) (V c main_v26)

/-- An index of the result is in point t's block iff each coordinate is in the block's range on its axis. -/
theorem mem_blk (t : Fin cfg1.N) (i : S100000x7.Idx) :
    i ∈ ((cfg1.win 5).blk t).view.set ↔ ∀ a : Fin 2, win1_5.index t a * S2000x7.size a ≤ (i a).val ∧ (i a).val < win1_5.index t a * S2000x7.size a + S2000x7.size a := by
  show i ∈ ((View.whole main_v28).slice (win1_5.rect t)).set ↔ _
  rw [View.set_slice_whole, Rect.mem_set_unit]
  exact Iff.rfl

/-- The 50 row blocks tile the result: row r lies in the block of point r / 2000. -/
theorem cover (i : S100000x7.Idx) : ∃ t : Fin cfg1.N, (cfg1.win 5).flush t = true ∧ i ∈ ((cfg1.win 5).blk t).view.set := by
  have hi0 : (i 0).val < 100000 := (i 0).isLt
  have hi1 : (i 1).val < 7 := (i 1).isLt
  have hN : cfg1.N = 50 := N_1
  let t : Fin cfg1.N := ⟨(i 0).val / 2000, by rw [hN]; omega⟩
  obtain ⟨-, -, -, -, -, -, -, -, -, -, e50, e51⟩ := block_index t
  refine ⟨t, flush1_5 t, ?_⟩
  rw [mem_blk]
  intro a
  have ht : t.val = (i 0).val / 2000 := rfl
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 7 ≤ (i 1).val ∧ (i 1).val < win1_5.index t (1 : Fin 2) * 7 + 7; omega

/-- The result array after the region. -/
theorem final (c : Dev nD) : (dat1 V c).arrAt 5 cfg1.N
    = proj (V c main_v24) (V c main_v25) (V c main_v27) (V c main_arg5) (V c main_v26) :=
  (dat1 V c).arrAt_eq_of_cover 5 _ (fun t _ => flushed_eq V c t) cover

end Cert.KernelIdeal.Layer2

end
-- ==== Proof.KernelValue.lean ====
/-
  The idealized kernel program's result array as one function of the seven argument arrays.

  The buffers' contents are followed through the program: the first host stretch leaves the two factor
  vectors (and the first as a column); the first region leaves the scaled projection of the features; the second
  stretch aggregates it along the edges and re-lays the factors and the bias; the second region leaves the
  second layer's scaled projection; the last stretch aggregates again, scales and adds the bias.  No stretch and no
  region writes an argument array, so every read of one goes back to the launch memory.
-/
import proofs.«171490_j17858474016867_2_alg».proof.Proof.Gen.KernelIdeal.Frame
import proofs.«171490_j17858474016867_2_alg».proof.Proof.HostRead
import proofs.«171490_j17858474016867_2_alg».proof.Proof.Layer1
import proofs.«171490_j17858474016867_2_alg».proof.Proof.Layer2

set_option maxRecDepth 16384

noncomputable section

namespace Cert.KernelIdeal.WholeValue

open Idealize.ShloMosaic Idealize.ShloMosaic.TcCoe Idealize.SL.Sem Idealize.ShloMosaic.StableHlo
open Cert.KernelIdeal Cert.KernelIdeal.Gen

/-- The program's result from its arguments: features `x0`, the edges' sources `x1` and destinations `x2`, the two
    layers' weights `x3`, `x5` and biases `x4`, `x6`. -/
def result (x0 : (⟨S100000x1433, .f32⟩ : BufTy).Contents (Elt Ideal)) (x1 x2 : (⟨S3200000, .i32⟩ : BufTy).Contents (Elt Ideal))
    (x3 : (⟨S1433x16, .f32⟩ : BufTy).Contents (Elt Ideal)) (x4 : (⟨S16, .f32⟩ : BufTy).Contents (Elt Ideal))
    (x5 : (⟨S16x7, .f32⟩ : BufTy).Contents (Elt Ideal)) (x6 : (⟨S7, .f32⟩ : BufTy).Contents (Elt Ideal)) :
    (⟨S100000x7, .f32⟩ : BufTy).Contents (Elt Ideal) :=
  Glue.finish (F := Ideal) x1 x2 (Glue.norm (F := Ideal) x2) x6
    (Layer2.proj
      (Glue.agg16 (F := Ideal) x1 x2 (Layer1.proj x0 x3 (Glue.col (F := Ideal) (Glue.norm (F := Ideal) x1))))
      (Glue.col (F := Ideal) (Glue.norm (F := Ideal) x2)) (Glue.row (F := Ideal) x4) x5
      (Glue.col (F := Ideal) (Glue.norm (F := Ideal) x1)))

variable (m : (ℓ : Loc nD τ sig) → Buf (Elt Ideal) ℓ) (ρ : Dev nD → PrngReg)

/-- The last boundary's contents at the result array. -/
theorem value (c : Dev nD) : W5 m ρ c (Proc.devRef .tc main_v44)
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  -- after the first stretch
  have a0_1 : W1 m ρ c (Proc.devRef .tc main_arg0) = m ((c.tc : Thread nD τ).loc main_arg0) := Glue.first_arg0 (W0 m ρ c)
  have a1_1 : W1 m ρ c (Proc.devRef .tc main_arg1) = m ((c.tc : Thread nD τ).loc main_arg1) := Glue.first_arg1 (W0 m ρ c)
  have a2_1 : W1 m ρ c (Proc.devRef .tc main_arg2) = m ((c.tc : Thread nD τ).loc main_arg2) := Glue.first_arg2 (W0 m ρ c)
  have a3_1 : W1 m ρ c (Proc.devRef .tc main_arg3) = m ((c.tc : Thread nD τ).loc main_arg3) := Glue.first_arg3 (W0 m ρ c)
  have a4_1 : W1 m ρ c (Proc.devRef .tc main_arg4) = m ((c.tc : Thread nD τ).loc main_arg4) := Glue.first_arg4 (W0 m ρ c)
  have a5_1 : W1 m ρ c (Proc.devRef .tc main_arg5) = m ((c.tc : Thread nD τ).loc main_arg5) := Glue.first_arg5 (W0 m ρ c)
  have a6_1 : W1 m ρ c (Proc.devRef .tc main_arg6) = m ((c.tc : Thread nD τ).loc main_arg6) := Glue.first_arg6 (W0 m ρ c)
  have v13_1 : W1 m ρ c (Proc.devRef .tc main_v13) = Glue.col (Glue.norm (F := Ideal) (m ((c.tc : Thread nD τ).loc main_arg1))) :=
    Glue.first_v13 (W0 m ρ c)
  have v9_1 : W1 m ρ c (Proc.devRef .tc main_v9) = Glue.norm (F := Ideal) (m ((c.tc : Thread nD τ).loc main_arg1)) := Glue.first_v9 (W0 m ρ c)
  have v12_1 : W1 m ρ c (Proc.devRef .tc main_v12) = Glue.norm (F := Ideal) (m ((c.tc : Thread nD τ).loc main_arg2)) := Glue.first_v12 (W0 m ρ c)
  -- after the first region
  have v14_2 : W2 m ρ c (Proc.devRef .tc main_v14)
      = Layer1.proj (m ((c.tc : Thread nD τ).loc main_arg0)) (m ((c.tc : Thread nD τ).loc main_arg3))
          (Glue.col (Glue.norm (F := Ideal) (m ((c.tc : Thread nD τ).loc main_arg1)))) := by
    refine ((W2_arr m ρ c 3).trans (Layer1.final (V1 m ρ) c)).trans ?_
    show Layer1.proj (W1 m ρ c (Proc.devRef .tc main_arg0)) (W1 m ρ c (Proc.devRef .tc main_arg3)) (W1 m ρ c (Proc.devRef .tc main_v13)) = _
    rw [a0_1, a3_1, v13_1]
  have a1_2 : W2 m ρ c (Proc.devRef .tc main_arg1) = m ((c.tc : Thread nD τ).loc main_arg1) := (W2_of_ne m ρ c main_arg1 (by decide)).trans a1_1
  have a2_2 : W2 m ρ c (Proc.devRef .tc main_arg2) = m ((c.tc : Thread nD τ).loc main_arg2) := (W2_of_ne m ρ c main_arg2 (by decide)).trans a2_1
  have a4_2 : W2 m ρ c (Proc.devRef .tc main_arg4) = m ((c.tc : Thread nD τ).loc main_arg4) := (W2_of_ne m ρ c main_arg4 (by decide)).trans a4_1
  have a5_2 : W2 m ρ c (Proc.devRef .tc main_arg5) = m ((c.tc : Thread nD τ).loc main_arg5) := (W2_of_ne m ρ c main_arg5 (by decide)).trans a5_1
  have a6_2 : W2 m ρ c (Proc.devRef .tc main_arg6) = m ((c.tc : Thread nD τ).loc main_arg6) := (W2_of_ne m ρ c main_arg6 (by decide)).trans a6_1
  have v9_2 : W2 m ρ c (Proc.devRef .tc main_v9) = Glue.norm (F := Ideal) (m ((c.tc : Thread nD τ).loc main_arg1)) := (W2_of_ne m ρ c main_v9 (by decide)).trans v9_1
  have v12_2 : W2 m ρ c (Proc.devRef .tc main_v12) = Glue.norm (F := Ideal) (m ((c.tc : Thread nD τ).loc main_arg2)) := (W2_of_ne m ρ c main_v12 (by decide)).trans v12_1
  -- after the second stretch
  have v24_3 : W3 m ρ c (Proc.devRef .tc main_v24)
      = Glue.agg16 (F := Ideal) (m ((c.tc : Thread nD τ).loc main_arg1)) (m ((c.tc : Thread nD τ).loc main_arg2))
          (Layer1.proj (m ((c.tc : Thread nD τ).loc main_arg0)) (m ((c.tc : Thread nD τ).loc main_arg3))
            (Glue.col (Glue.norm (F := Ideal) (m ((c.tc : Thread nD τ).loc main_arg1))))) := by
    refine (Glue.second_v24 (W2 m ρ c)).trans ?_
    rw [a1_2, a2_2, v14_2]
  have v25_3 : W3 m ρ c (Proc.devRef .tc main_v25) = Glue.col (Glue.norm (F := Ideal) (m ((c.tc : Thread nD τ).loc main_arg2))) := by
    refine (Glue.second_v25 (W2 m ρ c)).trans ?_
    rw [v12_2]
  have v26_3 : W3 m ρ c (Proc.devRef .tc main_v26) = Glue.col (Glue.norm (F := Ideal) (m ((c.tc : Thread nD τ).loc main_arg1))) := by
    refine (Glue.second_v26 (W2 m ρ c)).trans ?_
    rw [v9_2]
  have v27_3 : W3 m ρ c (Proc.devRef .tc main_v27) = Glue.row (F := Ideal) (m ((c.tc : Thread nD τ).loc main_arg4)) := by
    refine (Glue.second_v27 (W2 m ρ c)).trans ?_
    rw [a4_2]
  have a5_3 : W3 m ρ c (Proc.devRef .tc main_arg5) = m ((c.tc : Thread nD τ).loc main_arg5) := (Glue.second_arg5 (W2 m ρ c)).trans a5_2
  have a1_3 : W3 m ρ c (Proc.devRef .tc main_arg1) = m ((c.tc : Thread nD τ).loc main_arg1) := (Glue.second_arg1 (W2 m ρ c)).trans a1_2
  have a2_3 : W3 m ρ c (Proc.devRef .tc main_arg2) = m ((c.tc : Thread nD τ).loc main_arg2) := (Glue.second_arg2 (W2 m ρ c)).trans a2_2
  have a6_3 : W3 m ρ c (Proc.devRef .tc main_arg6) = m ((c.tc : Thread nD τ).loc main_arg6) := (Glue.second_arg6 (W2 m ρ c)).trans a6_2
  have v12_3 : W3 m ρ c (Proc.devRef .tc main_v12) = Glue.norm (F := Ideal) (m ((c.tc : Thread nD τ).loc main_arg2)) := (Glue.second_v12 (W2 m ρ c)).trans v12_2
  -- after the second region
  have v28_4 : W4 m ρ c (Proc.devRef .tc main_v28)
      = Layer2.proj (W3 m ρ c (Proc.devRef .tc main_v24)) (W3 m ρ c (Proc.devRef .tc main_v25)) (W3 m ρ c (Proc.devRef .tc main_v27))
          (W3 m ρ c (Proc.devRef .tc main_arg5)) (W3 m ρ c (Proc.devRef .tc main_v26)) :=
    (W4_arr m ρ c 5).trans (Layer2.final (V3 m ρ) c)
  have a1_4 : W4 m ρ c (Proc.devRef .tc main_arg1) = m ((c.tc : Thread nD τ).loc main_arg1) := (W4_of_ne m ρ c main_arg1 (by decide)).trans a1_3
  have a2_4 : W4 m ρ c (Proc.devRef .tc main_arg2) = m ((c.tc : Thread nD τ).loc main_arg2) := (W4_of_ne m ρ c main_arg2 (by decide)).trans a2_3
  have a6_4 : W4 m ρ c (Proc.devRef .tc main_arg6) = m ((c.tc : Thread nD τ).loc main_arg6) := (W4_of_ne m ρ c main_arg6 (by decide)).trans a6_3
  have v12_4 : W4 m ρ c (Proc.devRef .tc main_v12) = Glue.norm (F := Ideal) (m ((c.tc : Thread nD τ).loc main_arg2)) := (W4_of_ne m ρ c main_v12 (by decide)).trans v12_3
  -- the last stretch
  refine (Glue.last_v44 (W4 m ρ c)).trans ?_
  rw [a1_4, a2_4, a6_4, v12_4, v28_4, v24_3, v25_3, v26_3, v27_3, a5_3]
  rfl

end Cert.KernelIdeal.WholeValue

end
-- ==== Proof.Scale.lean ====
/-
  Scaling a contraction by a nonnegative finite factor, on the extended reals.

  The extended reals are not a semiring: a product does not distribute over a sum when the sum mixes the two
  infinities.  Multiplication by ONE fixed factor `s` with `0 ≤ s < ⊤` does distribute over every sum, whatever the
  summands: for `s = 0` both sides vanish, and for `s > 0` the map `x ↦ x * s` fixes each infinity and is the real
  scaling elsewhere.  Hence scaling each left factor of a contraction by `s` is scaling the contraction:
      ∑ k, (a k * s) * b k = (∑ k, a k * b k) * s.
  The factor met here is the reciprocal square root of a number that is at least one: it lies in [0, 1].
-/
import Idealize.ShloMosaic.PureOps.Ideal
import Idealize.ShloMosaic.PureOps.Ideal.Laws

noncomputable section

namespace Cert.GcnScale

open Idealize.ShloMosaic

/-- A factor that is nonnegative and not `⊤`. -/
def Tame (s : EReal) : Prop := 0 ≤ s ∧ s ≠ ⊤

/-- Multiplication by a tame factor distributes over a finite sum of arbitrary extended reals. -/
theorem sum_mul_tame {ι : Type} (t : Finset ι) (a : ι → EReal) {s : EReal} (hs : Tame s) :
    (∑ k ∈ t, a k) * s = ∑ k ∈ t, a k * s := by
  classical
  induction t using Finset.induction_on with
  | empty => simp
  | insert x t hx ih =>
    rw [Finset.sum_insert hx, Finset.sum_insert hx, EReal.right_distrib_of_nonneg_of_ne_top hs.1 hs.2, ih]

/-- Scaling every left factor of a contraction by a tame `s` scales the contraction. -/
theorem dot_scale {ι : Type} [Fintype ι] (a b : ι → EReal) {s : EReal} (hs : Tame s) :
    (∑ k, a k * b k) * s = ∑ k, (a k * s) * b k := by
  rw [sum_mul_tame Finset.univ _ hs]
  refine Finset.sum_congr rfl fun k _ => ?_
  rw [mul_assoc, mul_assoc, mul_comm (b k) s]

/-- The f32 pattern of one denotes the real one. -/
theorem ofBits_one_f32 : Ideal.ofBits .f32 0x3F800000#32 = 1 := by
  simp [Ideal.ofBits, Ideal.ieee, -EReal.coe_mul]; norm_num

/-- The reciprocal square root of anything that is at least one is tame: at `⊤` it is `0`, and at a real `r ≥ 1` it
    is the real `(√r)⁻¹ ≥ 0`. -/
theorem rsqrt_tame_of_one_le {y : EReal} (hy : 1 ≤ y) : Tame (Ideal.rsqrt y) := by
  induction y using EReal.rec with
  | bot => exact absurd (le_bot_iff.mp hy) (by decide)
  | top => exact ⟨le_of_eq rfl, EReal.zero_ne_top⟩
  | coe r =>
    have hr : (1 : ℝ) ≤ r := by exact_mod_cast hy
    have h1 : ¬ r < 0 := by linarith
    have h2 : r ≠ 0 := by linarith
    have e : Ideal.rsqrt (r : EReal) = (((Real.sqrt r)⁻¹ : ℝ) : EReal) := by
      show (if r < 0 then (⊥ : EReal) else if r = 0 then ⊤ else (((Real.sqrt r)⁻¹ : ℝ) : EReal)) = _
      rw [if_neg h1, if_neg h2]
    rw [e]
    exact ⟨by exact_mod_cast inv_nonneg.mpr (Real.sqrt_nonneg r), EReal.coe_ne_top _⟩

/-- The normalising factor of a node: the reciprocal square root of its degree clamped below by one. -/
theorem rsqrt_max_one_tame (x one : EReal) (h1 : one = 1) : Tame (Ideal.rsqrt (max x one)) :=
  rsqrt_tame_of_one_le (h1 ▸ le_max_right x one)

/-- The same for whole vectors, as the host computes it: entry j of the reciprocal square roots of the entrywise maximum
    of a vector and a vector whose entry j is one. -/
theorem host_rsqrt_max_tame {s : Shape} (A B : FVec Ideal s .f32) (j : s.Idx) (hB : B j = 1) :
    Tame (Host.rsqrt (maximumf A B) j) :=
  rsqrt_max_one_tame (A j) (B j) hB

end Cert.GcnScale

end
-- ==== Proof.Bridge.lean ====
/-
  The idealized kernel program and the idealized reference compute one function of the arguments.

  Both programs compute the nodes' normalising factors, aggregate along the edges, scale by the in-degree factor and
  add the bias with the same operations; they differ in where each layer's out-degree factor meets the matrix
  product.  The reference scales the rows BEFORE the product, ∑ k, (x (r, k) * s r) * w (k, q); the kernel scales the
  product's rows AFTER it, (∑ k, x (r, k) * w (k, q)) * s r.  The factor s r is the reciprocal square root of a number
  that is at least one, so it is a nonnegative real (or zero, at an infinite degree), and multiplication by such a
  factor distributes over every sum of extended reals: the two agree entry by entry, whatever the features, the
  weights and the aggregate hold.  The same holds for the second layer, whose left operand is the first layer's
  aggregate scaled, shifted by the bias and clamped at zero.
-/
import proofs.«171490_j17858474016867_2_alg».proof.Proof.KernelValue
import proofs.«171490_j17858474016867_2_alg».proof.Proof.Scale
import proofs.«171490_j17858474016867_2_alg».proof.Proof.Gen.ReferenceIdeal.Read

set_option maxRecDepth 16384

noncomputable section

namespace Cert.Bridge

open Idealize.ShloMosaic Idealize.ShloMosaic.ValueIdx
open Cert.KernelIdeal Cert.KernelIdeal.Facts₀ Cert.KernelIdeal.Facts

/-! ## The shared host pieces are the same functions in both programs -/

/-- The reference's out-degree factor is the kernel program's. -/
theorem norm_src (x : (⟨S3200000, .i32⟩ : BufTy).Contents (Elt Ideal)) : Cert.ReferenceIdeal.Read.val_main_v9 (F := Ideal) x = Glue.norm (F := Ideal) x := rfl
/-- The reference's in-degree factor is the kernel program's. -/
theorem norm_dst (x : (⟨S3200000, .i32⟩ : BufTy).Contents (Elt Ideal)) : Cert.ReferenceIdeal.Read.val_main_v12 (F := Ideal) x = Glue.norm (F := Ideal) x := rfl

/-- Every entry of a factor vector is nonnegative and finite. -/
theorem norm_tame (x : (⟨S3200000, .i32⟩ : BufTy).Contents (Elt Ideal)) (j : S100000.Idx) : Cert.GcnScale.Tame (Glue.norm (F := Ideal) x j) := by
  have hB : (broadcastInDim S100000 ![] bcast_S_S100000 (constant (F := Ideal) S_ .f32 0x3F800000#32)) j = (1 : EReal) := by
    rw [broadcastInDim_apply _ bcast_S_S100000 _ j (fun a => a.elim0) (fun a => a.elim0), constant_apply]
    exact Cert.GcnScale.ofBits_one_f32
  unfold Glue.norm
  exact Cert.GcnScale.host_rsqrt_max_tame _ _ j hB

/-- A vector as a column, read at row r. -/
theorem col_apply (v : (⟨S100000, .f32⟩ : BufTy).Contents (Elt Ideal)) (r : Fin 100000) :
    Glue.col (F := Ideal) v (ix2 r (0 : Fin 1)) = v (ix1 r) := by
  unfold Glue.col
  refine shapeCast_apply v shapeCasts_S100000_S100000x1 (ix2 r (0 : Fin 1)) (ix1 r) ?_
  rw [Shape.rowMajor_val_one, Shape.rowMajor_val_two]
  show r.val = r.val * 1 + 0
  omega

/-- A vector as a row, read at column k. -/
theorem row_apply (v : (⟨S16, .f32⟩ : BufTy).Contents (Elt Ideal)) (k : Fin 16) :
    Glue.row (F := Ideal) v (ix2 (0 : Fin 1) k) = v (ix1 k) := by
  unfold Glue.row
  refine shapeCast_apply v shapeCasts_S16_S1x16 (ix2 (0 : Fin 1) k) (ix1 k) ?_
  rw [Shape.rowMajor_val_one, Shape.rowMajor_val_two]
  show k.val = 0 * 16 + k.val
  omega

/-! ## The first layer -/

/-- The kernel's first region (product, then row scaling) leaves what the reference's scaled product is. -/
theorem layer1_eq (x0 : (⟨S100000x1433, .f32⟩ : BufTy).Contents (Elt Ideal)) (x1 : (⟨S3200000, .i32⟩ : BufTy).Contents (Elt Ideal))
    (x3 : (⟨S1433x16, .f32⟩ : BufTy).Contents (Elt Ideal)) :
    Layer1.proj x0 x3 (Glue.col (F := Ideal) (Glue.norm (F := Ideal) x1)) = Cert.ReferenceIdeal.Read.val_main_v16 (F := Ideal) x0 x1 x3 := by
  funext i
  obtain ⟨r, q, rfl⟩ : ∃ (r : Fin 100000) (q : Fin 16), i = ix2 r q := ⟨i 0, i 1, eq_ix2 i⟩
  rw [Cert.ReferenceIdeal.Read.val_main_v16_apply]
  simp only [Cert.ReferenceIdeal.Read.val_main_v15_apply, Cert.ReferenceIdeal.Read.val_main_v14_apply, Cert.ReferenceIdeal.Read.val_main_v13_apply]
  have hl : ∀ k : Fin 1433, Cert.ReferenceIdeal.Read.lidx_main_v16 (ix2 r q) k = ix2 r k := fun k =>
    funext fun a => by match a with | ⟨0, _⟩ => rfl | ⟨1, _⟩ => rfl
  have hr : ∀ k : Fin 1433, Cert.ReferenceIdeal.Read.ridx_main_v16 (ix2 r q) k = ix2 k q := fun k =>
    funext fun a => by match a with | ⟨0, _⟩ => rfl | ⟨1, _⟩ => rfl
  have hs : ∀ k : Fin 1433, Cert.ReferenceIdeal.Read.idx_main_v13 (Cert.ReferenceIdeal.Read.idx_main_v14 (ix2 r k)) = ix1 r := fun k =>
    funext fun a => by match a with | ⟨0, _⟩ => rfl
  simp only [hl, hr, hs, norm_src, Ideal.mulf_def]
  show (∑ k : Fin 1433, x0 (ix2 r k) * x3 (ix2 k q)) * Glue.col (F := Ideal) (Glue.norm (F := Ideal) x1) (ix2 r (0 : Fin 1))
    = ∑ k : Fin 1433, (x0 (ix2 r k) * Glue.norm (F := Ideal) x1 (ix1 r)) * x3 (ix2 k q)
  rw [col_apply]
  exact Cert.GcnScale.dot_scale _ _ (norm_tame x1 (ix1 r))

/-! ## Between the layers -/

/-- The reference aggregates its first layer along the edges as the kernel program does. -/
theorem agg_eq (x0 : (⟨S100000x1433, .f32⟩ : BufTy).Contents (Elt Ideal)) (x1 x2 : (⟨S3200000, .i32⟩ : BufTy).Contents (Elt Ideal))
    (x3 : (⟨S1433x16, .f32⟩ : BufTy).Contents (Elt Ideal)) :
    Cert.ReferenceIdeal.Read.val_main_v26 (F := Ideal) x0 x1 x2 x3
      = Glue.agg16 (F := Ideal) x1 x2 (Cert.ReferenceIdeal.Read.val_main_v16 (F := Ideal) x0 x1 x3) := rfl

/-! ## The second layer -/

/-- The reference's second matrix product read at an entry, whatever its left operand holds: the contraction over
    the 16 hidden columns. -/
theorem dot2_apply (y : (⟨S100000x16, .f32⟩ : BufTy).Contents (Elt Ideal)) (x5 : (⟨S16x7, .f32⟩ : BufTy).Contents (Elt Ideal))
    (i : S100000x7.Idx) :
    Host.dotGeneral (F := Ideal) (φ₁ := .f32) (φ₂ := .f32) Cert.ReferenceIdeal.dot_S100000x16_S16x7_S100000x7_1_0_0_1_n_n none y x5 i
      = ∑ k : Fin 16, y (Cert.ReferenceIdeal.Read.lidx_main_v37 i k) * x5 (Cert.ReferenceIdeal.Read.ridx_main_v37 i k) := by
  simp only [Host.dotGeneral]
  rw [Ideal.dotGeneral_apply, ← Equiv.sum_comp (ValueIdx.contrEquiv1 Cert.ReferenceIdeal.dot_S100000x16_S16x7_S100000x7_1_0_0_1_n_n 16 rfl rfl).symm]
  refine Finset.sum_congr rfl fun k _ => ?_
  have hk := ValueIdx.contrEquiv1_symm_val Cert.ReferenceIdeal.dot_S100000x16_S16x7_S100000x7_1_0_0_1_n_n 16 rfl rfl k
  have el : Cert.ReferenceIdeal.dot_S100000x16_S16x7_S100000x7_1_0_0_1_n_n.lhsIdx i ((ValueIdx.contrEquiv1 Cert.ReferenceIdeal.dot_S100000x16_S16x7_S100000x7_1_0_0_1_n_n 16 rfl rfl).symm k) = Cert.ReferenceIdeal.Read.lidx_main_v37 i k := funext fun a => Fin.ext (by
    match a with
    | ⟨0, _⟩ => exact Cert.ReferenceIdeal.Read.lhs_main_v37_0 _ _
    | ⟨1, _⟩ => exact (Cert.ReferenceIdeal.Read.lhs_main_v37_1 _ _).trans hk)
  have er : Cert.ReferenceIdeal.dot_S100000x16_S16x7_S100000x7_1_0_0_1_n_n.rhsIdx i ((ValueIdx.contrEquiv1 Cert.ReferenceIdeal.dot_S100000x16_S16x7_S100000x7_1_0_0_1_n_n 16 rfl rfl).symm k) = Cert.ReferenceIdeal.Read.ridx_main_v37 i k := funext fun a => Fin.ext (by
    match a with
    | ⟨0, _⟩ => exact (Cert.ReferenceIdeal.Read.rhs_main_v37_0 _ _).trans hk
    | ⟨1, _⟩ => exact Cert.ReferenceIdeal.Read.rhs_main_v37_1 _ _)
  rw [el, er]

/-- The left operand of the reference's second product, from ANY first-layer aggregate `A`: scale each row by its
    in-degree factor, add the bias, clamp at zero, scale each row by its out-degree factor. -/
def left2 (A : FVec Ideal S100000x16 .f32) (x1 x2 : (⟨S3200000, .i32⟩ : BufTy).Contents (Elt Ideal)) (x4 : (⟨S16, .f32⟩ : BufTy).Contents (Elt Ideal)) :
    FVec Ideal S100000x16 .f32 :=
  mulf (maximumf (addf (mulf A (Cert.ReferenceIdeal.Read.val_main_v28 (F := Ideal) x2)) (Cert.ReferenceIdeal.Read.val_main_v31 (F := Ideal) x4))
      (Cert.ReferenceIdeal.Read.val_main_call0_v0 (F := Ideal))) (Cert.ReferenceIdeal.Read.val_main_v35 (F := Ideal) x1)

/-- The kernel's second region (scale, shift, clamp, product, then row scaling) leaves what the reference's second
    scaled product is, from ANY aggregate `A`. -/
theorem layer2_eq (A : FVec Ideal S100000x16 .f32) (x1 x2 : (⟨S3200000, .i32⟩ : BufTy).Contents (Elt Ideal))
    (x4 : (⟨S16, .f32⟩ : BufTy).Contents (Elt Ideal)) (x5 : (⟨S16x7, .f32⟩ : BufTy).Contents (Elt Ideal)) :
    Layer2.proj A (Glue.col (F := Ideal) (Glue.norm (F := Ideal) x2)) (Glue.row (F := Ideal) x4) x5
        (Glue.col (F := Ideal) (Glue.norm (F := Ideal) x1))
      = Host.dotGeneral (F := Ideal) (φ₁ := .f32) (φ₂ := .f32) Cert.ReferenceIdeal.dot_S100000x16_S16x7_S100000x7_1_0_0_1_n_n none (left2 A x1 x2 x4) x5 := by
  funext i
  obtain ⟨r, q, rfl⟩ : ∃ (r : Fin 100000) (q : Fin 7), i = ix2 r q := ⟨i 0, i 1, eq_ix2 i⟩
  rw [dot2_apply]
  have hl : ∀ k : Fin 16, Cert.ReferenceIdeal.Read.lidx_main_v37 (ix2 r q) k = ix2 r k := fun k =>
    funext fun a => by match a with | ⟨0, _⟩ => rfl | ⟨1, _⟩ => rfl
  have hr : ∀ k : Fin 16, Cert.ReferenceIdeal.Read.ridx_main_v37 (ix2 r q) k = ix2 k q := fun k =>
    funext fun a => by match a with | ⟨0, _⟩ => rfl | ⟨1, _⟩ => rfl
  have hd : ∀ k : Fin 16, Cert.ReferenceIdeal.Read.idx_main_v27 (Cert.ReferenceIdeal.Read.idx_main_v28 (ix2 r k)) = ix1 r := fun k =>
    funext fun a => by match a with | ⟨0, _⟩ => rfl
  have hb : ∀ k : Fin 16, Cert.ReferenceIdeal.Read.idx_main_v30 (Cert.ReferenceIdeal.Read.idx_main_v31 (ix2 r k)) = ix1 k := fun k =>
    funext fun a => by match a with | ⟨0, _⟩ => rfl
  have hs : ∀ k : Fin 16, Cert.ReferenceIdeal.Read.idx_main_v34 (Cert.ReferenceIdeal.Read.idx_main_v35 (ix2 r k)) = ix1 r := fun k =>
    funext fun a => by match a with | ⟨0, _⟩ => rfl
  have hsummand : ∀ k : Fin 16,
      left2 A x1 x2 x4 (Cert.ReferenceIdeal.Read.lidx_main_v37 (ix2 r q) k)
        = max (A (ix2 r k) * Glue.norm (F := Ideal) x2 (ix1 r) + x4 (ix1 k)) (Ideal.ofBits .f32 0x00000000#32)
            * Glue.norm (F := Ideal) x1 (ix1 r) := fun k => by
    unfold left2
    rw [hl, mulf_apply, maximumf_apply, addf_apply, mulf_apply, Cert.ReferenceIdeal.Read.val_main_v28_apply, Cert.ReferenceIdeal.Read.val_main_v27_apply, hd,
      Cert.ReferenceIdeal.Read.val_main_v31_apply, Cert.ReferenceIdeal.Read.val_main_v30_apply, hb, Cert.ReferenceIdeal.Read.val_main_v35_apply, Cert.ReferenceIdeal.Read.val_main_v34_apply, hs,
      Cert.ReferenceIdeal.Read.val_main_call0_v0_apply, Cert.ReferenceIdeal.Read.val_main_call0_cst_apply, Ideal.ofBits_def, norm_src, norm_dst]
  simp only [hsummand, hr]
  have lhs : ∀ (A' : S100000x16.Idx → Elt Ideal .f32) (D : S100000x1.Idx → Elt Ideal .f32) (B : S1x16.Idx → Elt Ideal .f32)
      (Wt : S16x7.Idx → Elt Ideal .f32) (S : S100000x1.Idx → Elt Ideal .f32),
      Layer2.proj A' D B Wt S (ix2 r q)
        = (∑ k : Fin 16, max (A' (ix2 r k) * D (ix2 r (0 : Fin 1)) + B (ix2 (0 : Fin 1) k)) (Ideal.ofBits .f32 0x00000000#32) * Wt (ix2 k q))
            * S (ix2 r (0 : Fin 1)) := fun _ _ _ _ _ => rfl
  rw [lhs, col_apply, col_apply]
  simp only [row_apply]
  exact Cert.GcnScale.dot_scale _ _ (norm_tame x1 (ix1 r))

/-! ## The end of both programs -/

/-- The reference's composed term: it finishes from its second product as the kernel program finishes from its second
    region, and its second product is taken of its own first aggregate. -/
theorem finish_eq (x0 : (⟨S100000x1433, .f32⟩ : BufTy).Contents (Elt Ideal)) (x1 x2 : (⟨S3200000, .i32⟩ : BufTy).Contents (Elt Ideal))
    (x3 : (⟨S1433x16, .f32⟩ : BufTy).Contents (Elt Ideal)) (x4 : (⟨S16, .f32⟩ : BufTy).Contents (Elt Ideal))
    (x5 : (⟨S16x7, .f32⟩ : BufTy).Contents (Elt Ideal)) (x6 : (⟨S7, .f32⟩ : BufTy).Contents (Elt Ideal)) :
    Cert.ReferenceIdeal.Read.val_main_v53 (F := Ideal) x0 x1 x2 x3 x4 x5 x6
      = Glue.finish (F := Ideal) x1 x2 (Glue.norm (F := Ideal) x2) x6
          (Host.dotGeneral (F := Ideal) (φ₁ := .f32) (φ₂ := .f32) Cert.ReferenceIdeal.dot_S100000x16_S16x7_S100000x7_1_0_0_1_n_n none (left2 (Cert.ReferenceIdeal.Read.val_main_v26 (F := Ideal) x0 x1 x2 x3) x1 x2 x4) x5) := rfl

/-- The two programs' results are one function of the arguments. -/
theorem result_eq (x0 : (⟨S100000x1433, .f32⟩ : BufTy).Contents (Elt Ideal)) (x1 x2 : (⟨S3200000, .i32⟩ : BufTy).Contents (Elt Ideal))
    (x3 : (⟨S1433x16, .f32⟩ : BufTy).Contents (Elt Ideal)) (x4 : (⟨S16, .f32⟩ : BufTy).Contents (Elt Ideal))
    (x5 : (⟨S16x7, .f32⟩ : BufTy).Contents (Elt Ideal)) (x6 : (⟨S7, .f32⟩ : BufTy).Contents (Elt Ideal)) :
    WholeValue.result x0 x1 x2 x3 x4 x5 x6 = Cert.ReferenceIdeal.Read.val_main_v53 (F := Ideal) x0 x1 x2 x3 x4 x5 x6 := by
  unfold WholeValue.result
  rw [layer1_eq, ← agg_eq, layer2_eq, finish_eq]

end Cert.Bridge

end
-- ==== Proof.lean ====
/-
  A two-layer graph convolution: the kernel program against its reference, over the extended reals.

  Per layer the reference multiplies every node's row by the node's out-degree factor, then by the weight matrix;
  the kernel program multiplies by the weight matrix first (in a pipelined region, 2000 nodes at a time) and scales
  each row of the product afterwards.  The factor is the reciprocal square root of a degree clamped below by one, a
  nonnegative real, and multiplication by a nonnegative real distributes over any sum of extended reals, so the two
  orders give the same array, whatever the inputs hold; every other operation (the degree counts, the aggregation
  along the edges, the in-degree scaling, the biases, the clamp at zero) is the same in both programs.
  The three frames are the programs' runs with the result dropped; no operation of the kernel was rewritten on its
  way to the extended reals, so there is nothing to preserve.
-/
import proofs.«171490_j17858474016867_2_alg».proof.Defs
import proofs.«171490_j17858474016867_2_alg».proof.Proof.Gen.Kernel
import proofs.«171490_j17858474016867_2_alg».proof.Proof.Gen.Kernel.Frame
import proofs.«171490_j17858474016867_2_alg».proof.Proof.Gen.KernelIdeal
import proofs.«171490_j17858474016867_2_alg».proof.Proof.Gen.KernelIdeal.Frame
import proofs.«171490_j17858474016867_2_alg».proof.Proof.Gen.ReferenceIdeal
import proofs.«171490_j17858474016867_2_alg».proof.Proof.Gen.Pre_finite_inputs
import proofs.«171490_j17858474016867_2_alg».proof.Proof.Gen.ReferenceIdeal.Run
import proofs.«171490_j17858474016867_2_alg».proof.Proof.Gen.ReferenceIdeal.Read
import proofs.«171490_j17858474016867_2_alg».proof.Proof.KernelRun
import proofs.«171490_j17858474016867_2_alg».proof.Proof.KernelValue
import proofs.«171490_j17858474016867_2_alg».proof.Proof.Bridge
import Idealize.ShloMosaic.Adequacy
import Idealize.ShloMosaic.Init

noncomputable section

namespace Cert.Proof

open Idealize.ShloMosaic Idealize.SL.Sem

/-- The kernel program as printed runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From memories that agree on the arguments both programs end with the same result array: the kernel program's
    at its function of the arguments, the reference's at its composed term, which is that function. -/
theorem algebraic : Cert.algebraic_KernelIdeal_ReferenceIdeal := by
  intro m ρ m' ρ' _ hagree
  refine ⟨fun c => Cert.KernelIdeal.WholeValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.WholeValue.value m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq, (hagree c).1, (hagree c).2.1, (hagree c).2.2.1, (hagree c).2.2.2.1,
      (hagree c).2.2.2.2.1, (hagree c).2.2.2.2.2.1, (hagree c).2.2.2.2.2.2]
    exact (Cert.Bridge.result_eq _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
